-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S128x128, .f32⟩
  | .hbm, ⟨21, _⟩ => ⟨S128x128, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S128x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_cst : Ref sig .tc := ⟨.hbm, 60, rfl⟩
abbrev main_call1_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with its result named.

  The program is four segments: host operations, the first layer's dense part on the matrix unit, host operations
  again, the second layer's dense part. Every weakly fair execution ends with every unscoped buffer at the contents
  the last segment leaves; read at the result buffer and at the ten arguments, that is the statement below: the
  result holds what the second region's write-backs leave in its output array, and the arguments are as launched.
-/
import proofs.«141448_j81767587381702_1_alg».proof.Proof.Gen.KernelIdeal.Frame

set_option maxRecDepth 16384

noncomputable section

namespace Cert.Gin.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    last boundary's contents at it, and the arguments are unchanged. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Gin.KernelRun

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibLinear.lean ====
/-
  A linear layer read at an index, on both sides.

  The kernel computes a block's product with the weights on the matrix unit into a zero accumulator and adds the bias
  kept as a row `[1, N]`; the host computes the whole array's `dot_general` and adds the bias `[N]` spread twice. At
  the extended reals both are, at `(p, q)`, the sum over the contracted axis of the products plus the bias of column
  `q`: the same finite sum, so a tiling of the rows changes nothing.
-/
import Idealize.ShloMosaic.PureOps.Ideal.Laws
import Idealize.ShloMosaic.Lib.ValueIdx
import Idealize.ShloMosaic.Lib.ValueLayout
import Idealize.ShloMosaic.Lib.Pipeline.Value
import proofs.«141448_j81767587381702_1_alg».proof.Proof.LibDot
import proofs.«141448_j81767587381702_1_alg».proof.Proof.LibColumn

open scoped BigOperators

noncomputable section

namespace Cert.LibLinear

open Idealize.ShloMosaic Idealize.ShloMosaic.ValueIdx

variable {M K N : ℕ}

/-- A kernel's linear layer on a block: the product of the block `x` and the weights `w` (both narrowed to bf16 on the
    way in, which changes nothing at the extended reals) into a zero accumulator, plus the bias row spread over the
    rows. At `(p, q)` it is `∑ k, x (p, k) · w (k, q) + b (0, q)`. -/
theorem kernel_linear_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨2, ![1, N]⟩ .f32)
    (hx : FTy.bf16.bits < FTy.f32.bits) (c : (⟨2, ![1, N]⟩ : Shape).ShapeCasts ⟨2, ![1, N]⟩)
    (bc : (⟨2, ![1, N]⟩ : Shape).Broadcasts ⟨2, ![M, N]⟩) (p : Fin M) (q : Fin N) :
    addf (matmul D none (truncf .bf16 x hx) (truncf .bf16 w hx) (constant ⟨2, ![M, N]⟩ .f32 0x00000000#32))
        (broadcastTo ⟨2, ![M, N]⟩ (shapeCast ⟨2, ![1, N]⟩ b c) bc) (ix2 p q)
      = (∑ k : Fin K, x (ix2 p k) * w (ix2 k q)) + b (ix2 (0 : Fin 1) q) := by
  rw [addf_apply, broadcastTo_1b_ab_apply, shapeCast_self]
  refine congrArg (· + b (ix2 (0 : Fin 1) q)) ?_
  refine (Ideal.matmul_constant_zero_apply D none _ _ (ix2 p q)).trans ?_
  exact PlainDot.sum_eq D h1 h2 h3 h4 h5 h6 (fun i => x i) (fun i => w i) p q

/-- The host's linear layer on the whole array: the `dot_general` of `x` and `w` plus the bias `[N]` spread to
    `[1, N]` and then over the rows. At `(p, q)` it is `∑ k, x (p, k) · w (k, q) + b q`. -/
theorem host_linear_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .f32) (w : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) (p : Fin M) (q : Fin N) :
    addf (Host.dotGeneral D none x w)
        (broadcastInDim ⟨2, ![M, N]⟩ ![0, 1] hb2 (broadcastInDim ⟨2, ![1, N]⟩ ![1] hb1 b)) (ix2 p q)
      = (∑ k : Fin K, x (ix2 p k) * w (ix2 k q)) + b (ix1 q) := by
  rw [addf_apply, Cert.LibColumn.broadcastInDim_1b_ab_apply, Cert.LibColumn.broadcastInDim_b_1b_apply]
  refine congrArg (· + b (ix1 q)) ?_
  refine (Ideal.dotGeneral_apply D none .single x w (ix2 p q)).trans ?_
  exact PlainDot.sum_eq D h1 h2 h3 h4 h5 h6 x w p q

end Cert.LibLinear

end
-- ==== Proof.Layer.lean ====
/-
  The dense part of one graph-convolution layer, read row by row.

  With `h = x + agg` the pre-activation of a node (its own features plus the sum of its in-neighbours'), a layer
  computes, for node `p` and output feature `q`,

      out (p, q) = Σ_k max (Σ_l h (p, l) · wa (k, l) + ba k, 0) · wb (q, k) + bb q,

  a function of row `p` of `h` alone. The kernel evaluates it on a block of rows: two products on the matrix unit
  into zero accumulators against the transposed weights, the operands narrowed to bf16 on the way in (the identity
  on the extended reals), each bias kept as a row `[1, n]` and spread over the block. The host evaluates it on the
  whole array: two `dot_general`s against the transposed weights, each bias spread `[n] → [1, n] → [M, n]`, the
  rectifier a maximum against a spread zero. At the extended reals both are the row function below; no law beyond
  reading each operation at an index is needed, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«141448_j81767587381702_1_alg».proof.Proof.LibDot
import proofs.«141448_j81767587381702_1_alg».proof.Proof.LibColumn
import proofs.«141448_j81767587381702_1_alg».proof.Proof.LibLinear

open scoped BigOperators

noncomputable section

namespace Cert.Gin

open Idealize.ShloMosaic Idealize.ShloMosaic.ValueIdx

variable {M n : ℕ}

/-- One node's output features from its pre-activation row `h`: `wa`, `wb` are the two weight matrices as given
    (`[out, in]`), `ba`, `bb` the biases. -/
def mlpRow (h : Fin n → EReal) (wa : Fin n → Fin n → EReal) (ba : Fin n → EReal) (wb : Fin n → Fin n → EReal)
    (bb : Fin n → EReal) (q : Fin n) : EReal :=
  (∑ k : Fin n, max ((∑ l : Fin n, h l * wa k l) + ba k) 0 * wb q k) + bb q

/-- The kernel's linear step on a block: the block `x` (narrowed to bf16) times the weights `w` (already bf16,
    `[in, out]`) into a zero accumulator, plus the bias `b` cast to a row and spread over the rows. At `(p, q)` it
    is `Σ_k x (p, k) · w (k, q) + b q`. -/
theorem block_linear_apply (D : DotDims ⟨2, ![M, n]⟩ ⟨2, ![n, n]⟩ ⟨2, ![M, n]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, n]⟩ .f32) (w : FVec Ideal ⟨2, ![n, n]⟩ .bf16) (b : FVec Ideal ⟨1, ![n]⟩ .f32)
    (hx : FTy.bf16.bits < FTy.f32.bits) (cw : (⟨2, ![n, n]⟩ : Shape).ShapeCasts ⟨2, ![n, n]⟩)
    (cb : (⟨1, ![n]⟩ : Shape).ShapeCasts ⟨2, ![1, n]⟩) (bc : (⟨2, ![1, n]⟩ : Shape).Broadcasts ⟨2, ![M, n]⟩)
    (p : Fin M) (q : Fin n) :
    addf (matmul D none (truncf .bf16 x hx) (shapeCast ⟨2, ![n, n]⟩ w cw) (constant ⟨2, ![M, n]⟩ .f32 0x00000000#32))
        (broadcastTo ⟨2, ![M, n]⟩ (shapeCast ⟨2, ![1, n]⟩ b cb) bc) (ix2 p q)
      = (∑ k : Fin n, x (ix2 p k) * w (ix2 k q)) + b (ix1 q) := by
  rw [addf_apply, broadcastTo_1b_ab_apply, shapeCast_a_1a_apply, shapeCast_self]
  refine congrArg (· + b (ix1 q)) ?_
  refine (Ideal.matmul_constant_zero_apply D none _ _ (ix2 p q)).trans ?_
  exact PlainDot.sum_eq D h1 h2 h3 h4 h5 h6 (fun i => x i) (fun i => w i) p q

/-- The kernel's dense part on a block, from the pre-activation block `h`: linear step, maximum against a spread
    zero, linear step. `waT`, `wbT` are the TRANSPOSED weights (`[in, out]`), as the kernel is handed them. -/
theorem block_dense_apply (D : DotDims ⟨2, ![M, n]⟩ ⟨2, ![n, n]⟩ ⟨2, ![M, n]⟩)
    (h1 : D.lhsContracting = [1]) (h2 : D.rhsContracting = [0]) (h3 : D.lhsNonContracting = [0])
    (h4 : D.rhsNonContracting = [1]) (h5 : D.lhsBatch = []) (h6 : D.rhsBatch = [])
    (h : FVec Ideal ⟨2, ![M, n]⟩ .f32) (waT wbT : FVec Ideal ⟨2, ![n, n]⟩ .bf16) (ba bb : FVec Ideal ⟨1, ![n]⟩ .f32)
    (hx : FTy.bf16.bits < FTy.f32.bits) (cw : (⟨2, ![n, n]⟩ : Shape).ShapeCasts ⟨2, ![n, n]⟩)
    (cb : (⟨1, ![n]⟩ : Shape).ShapeCasts ⟨2, ![1, n]⟩) (bc : (⟨2, ![1, n]⟩ : Shape).Broadcasts ⟨2, ![M, n]⟩)
    (p : Fin M) (q : Fin n) :
    addf (matmul D none
          (truncf .bf16
            (maximumf
              (addf (matmul D none (truncf .bf16 h hx) (shapeCast ⟨2, ![n, n]⟩ waT cw) (constant ⟨2, ![M, n]⟩ .f32 0x00000000#32))
                (broadcastTo ⟨2, ![M, n]⟩ (shapeCast ⟨2, ![1, n]⟩ ba cb) bc))
              (broadcast ⟨2, ![M, n]⟩ (Scalar.ofBits (F := Ideal) .f32 0x00000000#32))) hx)
          (shapeCast ⟨2, ![n, n]⟩ wbT cw) (constant ⟨2, ![M, n]⟩ .f32 0x00000000#32))
        (broadcastTo ⟨2, ![M, n]⟩ (shapeCast ⟨2, ![1, n]⟩ bb cb) bc) (ix2 p q)
      = mlpRow (fun l => h (ix2 p l)) (fun k l => waT (ix2 l k)) (fun k => ba (ix1 k)) (fun j k => wbT (ix2 k j))
          (fun j => bb (ix1 j)) q := by
  rw [block_linear_apply D h1 h2 h3 h4 h5 h6]
  unfold mlpRow
  refine congrArg (· + bb (ix1 q)) (Finset.sum_congr rfl fun k _ => ?_)
  rw [maximumf_apply, broadcast_apply, block_linear_apply D h1 h2 h3 h4 h5 h6]
  show max _ (Ideal.ofBits .f32 0x00000000#32) * _ = _
  rw [Ideal.ofBits_zero_f32]

/-- The host's dense part on the whole array, from the pre-activation array `h`: `dot_general` against the
    transposed weight, the bias spread twice, a maximum against a spread zero, and the same again. `wa`, `wb` are
    the weights as given (`[out, in]`). -/
theorem host_dense_apply (D : DotDims ⟨2, ![M, n]⟩ ⟨2, ![n, n]⟩ ⟨2, ![M, n]⟩)
    (h1 : D.lhsContracting = [1]) (h2 : D.rhsContracting = [0]) (h3 : D.lhsNonContracting = [0])
    (h4 : D.rhsNonContracting = [1]) (h5 : D.lhsBatch = []) (h6 : D.rhsBatch = [])
    (h : FVec Ideal ⟨2, ![M, n]⟩ .f32) (wa wb : FVec Ideal ⟨2, ![n, n]⟩ .f32) (ba bb : FVec Ideal ⟨1, ![n]⟩ .f32)
    (tr : (⟨2, ![n, n]⟩ : Shape).Transposes [1, 0] ⟨2, ![n, n]⟩)
    (hb1 : (⟨1, ![n]⟩ : Shape).BroadcastsInDim ⟨2, ![1, n]⟩ ![1])
    (hb2 : (⟨2, ![1, n]⟩ : Shape).BroadcastsInDim ⟨2, ![M, n]⟩ ![0, 1])
    (hz : (⟨0, ![]⟩ : Shape).BroadcastsInDim ⟨2, ![M, n]⟩ ![]) (p : Fin M) (q : Fin n) :
    addf (Host.dotGeneral D none
          (maximumf
            (addf (Host.dotGeneral D none h (transpose ⟨2, ![n, n]⟩ [1, 0] wa tr))
              (broadcastInDim ⟨2, ![M, n]⟩ ![0, 1] hb2 (broadcastInDim ⟨2, ![1, n]⟩ ![1] hb1 ba)))
            (broadcastInDim ⟨2, ![M, n]⟩ ![] hz (constant (F := Ideal) ⟨0, ![]⟩ .f32 0x00000000#32)))
          (transpose ⟨2, ![n, n]⟩ [1, 0] wb tr))
        (broadcastInDim ⟨2, ![M, n]⟩ ![0, 1] hb2 (broadcastInDim ⟨2, ![1, n]⟩ ![1] hb1 bb)) (ix2 p q)
      = mlpRow (fun l => h (ix2 p l)) (fun k l => wa (ix2 k l)) (fun k => ba (ix1 k)) (fun j k => wb (ix2 j k))
          (fun j => bb (ix1 j)) q := by
  rw [Cert.LibLinear.host_linear_apply D h1 h2 h3 h4 h5 h6]
  unfold mlpRow
  refine congrArg (· + bb (ix1 q)) (Finset.sum_congr rfl fun k _ => ?_)
  rw [maximumf_apply, Cert.LibColumn.broadcastInDim_scalar_apply, constant_apply,
    Cert.LibLinear.host_linear_apply D h1 h2 h3 h4 h5 h6, transpose_ix2_apply, Ideal.ofBits_zero_f32]
  refine congrArg (fun s => max (s + ba (ix1 k)) 0 * wb (ix2 q k)) (Finset.sum_congr rfl fun l _ => ?_)
  rw [transpose_ix2_apply]

/-! ## The whole array -/

/-- A layer's dense part on an array of `M` rows, in the kernel's arrangement: the weights arrive transposed
    (`[in, out]`) and narrowed. Row `i 0` of the result depends on row `i 0` of `x` and of `agg` alone. -/
def layerT (x agg : FVec Ideal ⟨2, ![M, n]⟩ .f32) (waT wbT : FVec Ideal ⟨2, ![n, n]⟩ .bf16)
    (ba bb : FVec Ideal ⟨1, ![n]⟩ .f32) : FVec Ideal ⟨2, ![M, n]⟩ .f32 :=
  fun i => mlpRow (fun l => x (ix2 (i 0) l) + agg (ix2 (i 0) l)) (fun k l => waT (ix2 l k)) (fun k => ba (ix1 k))
    (fun j k => wbT (ix2 k j)) (fun j => bb (ix1 j)) (i 1)

/-- The same over the weights as given (`[out, in]`): the form both programs are compared at. -/
def layer (x agg : FVec Ideal ⟨2, ![M, n]⟩ .f32) (wa wb : FVec Ideal ⟨2, ![n, n]⟩ .f32)
    (ba bb : FVec Ideal ⟨1, ![n]⟩ .f32) : FVec Ideal ⟨2, ![M, n]⟩ .f32 :=
  fun i => mlpRow (fun l => x (ix2 (i 0) l) + agg (ix2 (i 0) l)) (fun k l => wa (ix2 k l)) (fun k => ba (ix1 k))
    (fun j k => wb (ix2 j k)) (fun j => bb (ix1 j)) (i 1)

/-- Transposing a weight and narrowing it, then reading it transposed, reads the weight as given. -/
theorem layerT_transposed (x agg : FVec Ideal ⟨2, ![M, n]⟩ .f32) (wa wb : FVec Ideal ⟨2, ![n, n]⟩ .f32)
    (ba bb : FVec Ideal ⟨1, ![n]⟩ .f32) (tr : (⟨2, ![n, n]⟩ : Shape).Transposes [1, 0] ⟨2, ![n, n]⟩)
    (hx : FTy.bf16.bits < FTy.f32.bits) :
    layerT x agg (truncf .bf16 (transpose ⟨2, ![n, n]⟩ [1, 0] wa tr) hx)
        (truncf .bf16 (transpose ⟨2, ![n, n]⟩ [1, 0] wb tr) hx) ba bb
      = layer x agg wa wb ba bb := by
  funext i
  unfold layerT layer
  have ea : (fun k l => (truncf .bf16 (transpose ⟨2, ![n, n]⟩ [1, 0] wa tr) hx : FVec Ideal ⟨2, ![n, n]⟩ .bf16) (ix2 l k))
      = fun k l => wa (ix2 k l) := by
    funext k l; rw [truncf_apply, transpose_ix2_apply]
  have eb : (fun j k => (truncf .bf16 (transpose ⟨2, ![n, n]⟩ [1, 0] wb tr) hx : FVec Ideal ⟨2, ![n, n]⟩ .bf16) (ix2 k j))
      = fun j k => wb (ix2 j k) := by
    funext j k; rw [truncf_apply, transpose_ix2_apply]
  rw [ea, eb]

/-- The host's dense part of a layer IS `layer`, at every index. -/
theorem host_dense_eq_layer (D : DotDims ⟨2, ![M, n]⟩ ⟨2, ![n, n]⟩ ⟨2, ![M, n]⟩)
    (h1 : D.lhsContracting = [1]) (h2 : D.rhsContracting = [0]) (h3 : D.lhsNonContracting = [0])
    (h4 : D.rhsNonContracting = [1]) (h5 : D.lhsBatch = []) (h6 : D.rhsBatch = [])
    (x agg : FVec Ideal ⟨2, ![M, n]⟩ .f32) (wa wb : FVec Ideal ⟨2, ![n, n]⟩ .f32) (ba bb : FVec Ideal ⟨1, ![n]⟩ .f32)
    (tr : (⟨2, ![n, n]⟩ : Shape).Transposes [1, 0] ⟨2, ![n, n]⟩)
    (hb1 : (⟨1, ![n]⟩ : Shape).BroadcastsInDim ⟨2, ![1, n]⟩ ![1])
    (hb2 : (⟨2, ![1, n]⟩ : Shape).BroadcastsInDim ⟨2, ![M, n]⟩ ![0, 1])
    (hz : (⟨0, ![]⟩ : Shape).BroadcastsInDim ⟨2, ![M, n]⟩ ![]) :
    addf (Host.dotGeneral D none
          (maximumf
            (addf (Host.dotGeneral D none (addf x agg) (transpose ⟨2, ![n, n]⟩ [1, 0] wa tr))
              (broadcastInDim ⟨2, ![M, n]⟩ ![0, 1] hb2 (broadcastInDim ⟨2, ![1, n]⟩ ![1] hb1 ba)))
            (broadcastInDim ⟨2, ![M, n]⟩ ![] hz (constant (F := Ideal) ⟨0, ![]⟩ .f32 0x00000000#32)))
          (transpose ⟨2, ![n, n]⟩ [1, 0] wb tr))
        (broadcastInDim ⟨2, ![M, n]⟩ ![0, 1] hb2 (broadcastInDim ⟨2, ![1, n]⟩ ![1] hb1 bb))
      = layer x agg wa wb ba bb := by
  funext i
  obtain ⟨p, q, rfl⟩ : ∃ (p : Fin M) (q : Fin n), i = ix2 p q := ⟨i 0, i 1, eq_ix2 i⟩
  exact host_dense_apply D h1 h2 h3 h4 h5 h6 (addf x agg) wa wb ba bb tr hb1 hb2 hz p q

end Cert.Gin

end
-- ==== Proof.Region0.lean ====
/-
  What the first region leaves in its output array.

  The region runs the layer's dense part on 20 blocks of 5000 rows. At grid point `t` the two row-blocked operands
  (the node features and the aggregated neighbour features) are rows `5000·t … 5000·t + 4999` of their arrays, the
  weights and biases are their whole arrays at every point, and the block written back is rows `5000·t …` of the
  output. Since a row of the result depends only on the same row of the two operands, block `t` of the result is
  block `t` of ONE whole-array function (`layerT` of the arrays as the region finds them); the 20 blocks tile
  the 100000 rows, so the array ends holding that function. Stated at any entry contents `V`.
-/
import proofs.«141448_j81767587381702_1_alg».proof.Proof.Gen.KernelIdeal.Frame
import proofs.«141448_j81767587381702_1_alg».proof.Proof.Layer
import Idealize.ShloMosaic.Lib.Pipeline.Value
import Idealize.ShloMosaic.Lib.ValueIdx

set_option maxRecDepth 16384

noncomputable section

namespace Cert.Gin.Region0

open Cert.KernelIdeal Cert.KernelIdeal.Gen Cert.Gin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The region's operand arrays as it finds them, typed as arrays of extended reals: the node features, their
    neighbour aggregate, the two transposed weights and the two biases. -/
abbrev opX (c : Dev nD) : FVec Ideal S100000x128 .f32 := V c main_arg0
abbrev opAgg (c : Dev nD) : FVec Ideal S100000x128 .f32 := V c main_v21
abbrev opWa (c : Dev nD) : FVec Ideal S128x128 .bf16 := V c main_v5
abbrev opWb (c : Dev nD) : FVec Ideal S128x128 .bf16 := V c main_v7
abbrev opBa (c : Dev nD) : FVec Ideal S128 .f32 := V c main_arg3
abbrev opBb (c : Dev nD) : FVec Ideal S128 .f32 := V c main_arg5

/-- The body's stored value at row `p`, column `q` of the block is the row function of row `p` of the two
    row-blocked operands, read against the transposed weights. -/
theorem body_apply (x0 x1 : Vec Ideal S5000x128 .f32) (x2 : Vec Ideal S128x128 .bf16) (x3 : Vec Ideal S128 .f32)
    (x4 : Vec Ideal S128x128 .bf16) (x5 : Vec Ideal S128 .f32) (p : Fin 5000) (q : Fin 128) :
    k0_pay1 x0 x1 x2 x3 x4 x5 (ix2 p q)
      = mlpRow (fun l => x0 (ix2 p l) + x1 (ix2 p l)) (fun k l => x2 (ix2 l k)) (fun k => x3 (ix1 k))
          (fun j k => x4 (ix2 k j)) (fun j => x5 (ix1 j)) q := by
  unfold k0_pay1
  refine (block_dense_apply dot_S5000x128_S128x128_S5000x128_1_0_0_1_n_n rfl rfl rfl rfl rfl rfl _ x2 x4 x3 x5 _ _ _ _ p q).trans ?_
  simp only [addf_apply, shapeCast_self]

/-- The printed index maps over the grid: the row-blocked windows and the output sit at block row `t`, block column
    0; the weights and biases at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What grid point `t` writes back is block `t` of `layerT` of the arrays as the region finds them. -/
theorem flushed_eq (c : Dev nD) (t : Fin cfg0.N) :
    (dat0 V c).flushed 6 t = ((cfg0.win 6).blk t).view.read (Elt Ideal)
      (layerT (opX V c) (opAgg V c) (opWa V c) (opWb V c) (opBa V c) (opBb V c)) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S128x128) zero2,
    View.ld_unit_zero (S := S128) zero1]
  obtain ⟨e00, e01, e10, e11, e20, e21, e30, e40, e41, e50, e60, e61⟩ := idx_facts t
  funext j
  obtain ⟨p, q, rfl⟩ : ∃ (p : Fin 5000) (q : Fin 128), j = ix2 p q := ⟨j 0, j 1, eq_ix2 j⟩
  refine (body_apply _ _ _ _ _ _ p q).trans ?_
  show mlpRow
        (fun l => opX V c (((cfg0.win 0).blk t).view.emb (ix2 p l)) + opAgg V c (((cfg0.win 1).blk t).view.emb (ix2 p l)))
        (fun k l => opWa V c (((cfg0.win 2).blk t).view.emb (ix2 l k)))
        (fun k => opBa V c (((cfg0.win 3).blk t).view.emb (ix1 k)))
        (fun j k => opWb V c (((cfg0.win 4).blk t).view.emb (ix2 k j)))
        (fun j => opBb V c (((cfg0.win 5).blk t).view.emb (ix1 j))) q
      = layerT (opX V c) (opAgg V c) (opWa V c) (opWb V c) (opBa V c) (opBb V c)
          (((cfg0.win 6).blk t).view.emb (ix2 p q))
  unfold layerT
  have h0 : ∀ l : Fin 128, ((cfg0.win 0).blk t).view.emb (ix2 p l) = ix2 ((((cfg0.win 6).blk t).view.emb (ix2 p q)) 0) l := fun l => by
    funext a; apply Fin.ext
    match a with
    | ⟨0, _⟩ => show win0_0.index t (0 : Fin 2) * 5000 + 1 * p.val = win0_6.index t (0 : Fin 2) * 5000 + 1 * p.val; rw [e00, e60]
    | ⟨1, _⟩ => show win0_0.index t (1 : Fin 2) * 128 + 1 * l.val = l.val; rw [e01]; omega
  have h1 : ∀ l : Fin 128, ((cfg0.win 1).blk t).view.emb (ix2 p l) = ix2 ((((cfg0.win 6).blk t).view.emb (ix2 p q)) 0) l := fun l => by
    funext a; apply Fin.ext
    match a with
    | ⟨0, _⟩ => show win0_1.index t (0 : Fin 2) * 5000 + 1 * p.val = win0_6.index t (0 : Fin 2) * 5000 + 1 * p.val; rw [e10, e60]
    | ⟨1, _⟩ => show win0_1.index t (1 : Fin 2) * 128 + 1 * l.val = l.val; rw [e11]; omega
  have h2 : ∀ l k : Fin 128, ((cfg0.win 2).blk t).view.emb (ix2 l k) = ix2 l k := fun l k => by
    funext a; apply Fin.ext
    match a with
    | ⟨0, _⟩ => show win0_2.index t (0 : Fin 2) * 128 + 1 * l.val = l.val; rw [e20]; omega
    | ⟨1, _⟩ => show win0_2.index t (1 : Fin 2) * 128 + 1 * k.val = k.val; rw [e21]; omega
  have h3 : ∀ k : Fin 128, ((cfg0.win 3).blk t).view.emb (ix1 k) = ix1 k := fun k => by
    funext a; apply Fin.ext
    match a with
    | ⟨0, _⟩ => show win0_3.index t (0 : Fin 1) * 128 + 1 * k.val = k.val; rw [e30]; omega
  have h4 : ∀ l k : Fin 128, ((cfg0.win 4).blk t).view.emb (ix2 l k) = ix2 l k := fun l k => by
    funext a; apply Fin.ext
    match a with
    | ⟨0, _⟩ => show win0_4.index t (0 : Fin 2) * 128 + 1 * l.val = l.val; rw [e40]; omega
    | ⟨1, _⟩ => show win0_4.index t (1 : Fin 2) * 128 + 1 * k.val = k.val; rw [e41]; omega
  have h5 : ∀ k : Fin 128, ((cfg0.win 5).blk t).view.emb (ix1 k) = ix1 k := fun k => by
    funext a; apply Fin.ext
    match a with
    | ⟨0, _⟩ => show win0_5.index t (0 : Fin 1) * 128 + 1 * k.val = k.val; rw [e50]; omega
  have hq : (((cfg0.win 6).blk t).view.emb (ix2 p q)) 1 = q :=
    Fin.ext (show win0_6.index t (1 : Fin 2) * 128 + 1 * q.val = q.val by rw [e61]; omega)
  simp only [h0, h1, h2, h3, h4, h5, hq]
  rfl

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22).slice (win0_6.rect t)).set ↔ _
  rw [View.set_slice_whole, Rect.mem_set_unit]
  exact Iff.rfl

/-- The 20 blocks tile the array: row `r` is in the block of point `r / 5000`, which writes it back. -/
theorem cover (i : S100000x128.Idx) :
    ∃ t : Fin cfg0.N, (cfg0.win 6).flush t = true ∧ i ∈ ((cfg0.win 6).blk t).view.set := by
  have hN : grid0.N = 20 := N_0
  have hi0 : (i 0).val < 100000 := (i 0).isLt
  have hi1 : (i 1).val < 128 := (i 1).isLt
  have ht : (i 0).val / 5000 < grid0.N := by rw [hN]; omega
  refine ⟨⟨(i 0).val / 5000, ht⟩, flush0_6 _, ?_⟩
  rw [mem_blk]
  obtain ⟨-, -, -, -, -, -, -, -, -, -, e60, e61⟩ := idx_facts ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e61]
    omega

/-- The output array after the region: `layerT` of the arrays as the region finds them. -/
theorem final (c : Dev nD) :
    (dat0 V c).arrAt 6 cfg0.N
      = layerT (opX V c) (opAgg V c) (opWa V c) (opWb V c) (opBa V c) (opBb V c) :=
  (dat0 V c).arrAt_eq_of_cover 6 _ (fun t _ => flushed_eq V c t) (fun i => cover i)

end Cert.Gin.Region0

end
-- ==== Proof.Region1.lean ====
/-
  What the second region leaves in its output array.

  The region runs the layer's dense part on 20 blocks of 5000 rows. At grid point `t` the two row-blocked operands
  (the node features and the aggregated neighbour features) are rows `5000·t … 5000·t + 4999` of their arrays, the
  weights and biases are their whole arrays at every point, and the block written back is rows `5000·t …` of the
  output. Since a row of the result depends only on the same row of the two operands, block `t` of the result is
  block `t` of ONE whole-array function (`layerT` of the arrays as the region finds them); the 20 blocks tile
  the 100000 rows, so the array ends holding that function. Stated at any entry contents `V`.
-/
import proofs.«141448_j81767587381702_1_alg».proof.Proof.Gen.KernelIdeal.Frame
import proofs.«141448_j81767587381702_1_alg».proof.Proof.Layer
import Idealize.ShloMosaic.Lib.Pipeline.Value
import Idealize.ShloMosaic.Lib.ValueIdx

set_option maxRecDepth 16384

noncomputable section

namespace Cert.Gin.Region1

open Cert.KernelIdeal Cert.KernelIdeal.Gen Cert.Gin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The region's operand arrays as it finds them, typed as arrays of extended reals: the node features, their
    neighbour aggregate, the two transposed weights and the two biases. -/
abbrev opX (c : Dev nD) : FVec Ideal S100000x128 .f32 := V c main_v22
abbrev opAgg (c : Dev nD) : FVec Ideal S100000x128 .f32 := V c main_v32
abbrev opWa (c : Dev nD) : FVec Ideal S128x128 .bf16 := V c main_v9
abbrev opWb (c : Dev nD) : FVec Ideal S128x128 .bf16 := V c main_v11
abbrev opBa (c : Dev nD) : FVec Ideal S128 .f32 := V c main_arg7
abbrev opBb (c : Dev nD) : FVec Ideal S128 .f32 := V c main_arg9

/-- The body's stored value at row `p`, column `q` of the block is the row function of row `p` of the two
    row-blocked operands, read against the transposed weights. -/
theorem body_apply (x0 x1 : Vec Ideal S5000x128 .f32) (x2 : Vec Ideal S128x128 .bf16) (x3 : Vec Ideal S128 .f32)
    (x4 : Vec Ideal S128x128 .bf16) (x5 : Vec Ideal S128 .f32) (p : Fin 5000) (q : Fin 128) :
    k1_pay1 x0 x1 x2 x3 x4 x5 (ix2 p q)
      = mlpRow (fun l => x0 (ix2 p l) + x1 (ix2 p l)) (fun k l => x2 (ix2 l k)) (fun k => x3 (ix1 k))
          (fun j k => x4 (ix2 k j)) (fun j => x5 (ix1 j)) q := by
  unfold k1_pay1
  refine (block_dense_apply dot_S5000x128_S128x128_S5000x128_1_0_0_1_n_n rfl rfl rfl rfl rfl rfl _ x2 x4 x3 x5 _ _ _ _ p q).trans ?_
  simp only [addf_apply, shapeCast_self]

/-- The printed index maps over the grid: the row-blocked windows and the output sit at block row `t`, block column
    0; the weights and biases at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What grid point `t` writes back is block `t` of `layerT` of the arrays as the region finds them. -/
theorem flushed_eq (c : Dev nD) (t : Fin cfg1.N) :
    (dat1 V c).flushed 6 t = ((cfg1.win 6).blk t).view.read (Elt Ideal)
      (layerT (opX V c) (opAgg V c) (opWa V c) (opWb V c) (opBa V c) (opBb V c)) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S128x128) zero2,
    View.ld_unit_zero (S := S128) zero1]
  obtain ⟨e00, e01, e10, e11, e20, e21, e30, e40, e41, e50, e60, e61⟩ := idx_facts t
  funext j
  obtain ⟨p, q, rfl⟩ : ∃ (p : Fin 5000) (q : Fin 128), j = ix2 p q := ⟨j 0, j 1, eq_ix2 j⟩
  refine (body_apply _ _ _ _ _ _ p q).trans ?_
  show mlpRow
        (fun l => opX V c (((cfg1.win 0).blk t).view.emb (ix2 p l)) + opAgg V c (((cfg1.win 1).blk t).view.emb (ix2 p l)))
        (fun k l => opWa V c (((cfg1.win 2).blk t).view.emb (ix2 l k)))
        (fun k => opBa V c (((cfg1.win 3).blk t).view.emb (ix1 k)))
        (fun j k => opWb V c (((cfg1.win 4).blk t).view.emb (ix2 k j)))
        (fun j => opBb V c (((cfg1.win 5).blk t).view.emb (ix1 j))) q
      = layerT (opX V c) (opAgg V c) (opWa V c) (opWb V c) (opBa V c) (opBb V c)
          (((cfg1.win 6).blk t).view.emb (ix2 p q))
  unfold layerT
  have h0 : ∀ l : Fin 128, ((cfg1.win 0).blk t).view.emb (ix2 p l) = ix2 ((((cfg1.win 6).blk t).view.emb (ix2 p q)) 0) l := fun l => by
    funext a; apply Fin.ext
    match a with
    | ⟨0, _⟩ => show win1_0.index t (0 : Fin 2) * 5000 + 1 * p.val = win1_6.index t (0 : Fin 2) * 5000 + 1 * p.val; rw [e00, e60]
    | ⟨1, _⟩ => show win1_0.index t (1 : Fin 2) * 128 + 1 * l.val = l.val; rw [e01]; omega
  have h1 : ∀ l : Fin 128, ((cfg1.win 1).blk t).view.emb (ix2 p l) = ix2 ((((cfg1.win 6).blk t).view.emb (ix2 p q)) 0) l := fun l => by
    funext a; apply Fin.ext
    match a with
    | ⟨0, _⟩ => show win1_1.index t (0 : Fin 2) * 5000 + 1 * p.val = win1_6.index t (0 : Fin 2) * 5000 + 1 * p.val; rw [e10, e60]
    | ⟨1, _⟩ => show win1_1.index t (1 : Fin 2) * 128 + 1 * l.val = l.val; rw [e11]; omega
  have h2 : ∀ l k : Fin 128, ((cfg1.win 2).blk t).view.emb (ix2 l k) = ix2 l k := fun l k => by
    funext a; apply Fin.ext
    match a with
    | ⟨0, _⟩ => show win1_2.index t (0 : Fin 2) * 128 + 1 * l.val = l.val; rw [e20]; omega
    | ⟨1, _⟩ => show win1_2.index t (1 : Fin 2) * 128 + 1 * k.val = k.val; rw [e21]; omega
  have h3 : ∀ k : Fin 128, ((cfg1.win 3).blk t).view.emb (ix1 k) = ix1 k := fun k => by
    funext a; apply Fin.ext
    match a with
    | ⟨0, _⟩ => show win1_3.index t (0 : Fin 1) * 128 + 1 * k.val = k.val; rw [e30]; omega
  have h4 : ∀ l k : Fin 128, ((cfg1.win 4).blk t).view.emb (ix2 l k) = ix2 l k := fun l k => by
    funext a; apply Fin.ext
    match a with
    | ⟨0, _⟩ => show win1_4.index t (0 : Fin 2) * 128 + 1 * l.val = l.val; rw [e40]; omega
    | ⟨1, _⟩ => show win1_4.index t (1 : Fin 2) * 128 + 1 * k.val = k.val; rw [e41]; omega
  have h5 : ∀ k : Fin 128, ((cfg1.win 5).blk t).view.emb (ix1 k) = ix1 k := fun k => by
    funext a; apply Fin.ext
    match a with
    | ⟨0, _⟩ => show win1_5.index t (0 : Fin 1) * 128 + 1 * k.val = k.val; rw [e50]; omega
  have hq : (((cfg1.win 6).blk t).view.emb (ix2 p q)) 1 = q :=
    Fin.ext (show win1_6.index t (1 : Fin 2) * 128 + 1 * q.val = q.val by rw [e61]; omega)
  simp only [h0, h1, h2, h3, h4, h5, hq]
  rfl

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- The 20 blocks tile the array: row `r` is in the block of point `r / 5000`, which writes it back. -/
theorem cover (i : S100000x128.Idx) :
    ∃ t : Fin cfg1.N, (cfg1.win 6).flush t = true ∧ i ∈ ((cfg1.win 6).blk t).view.set := by
  have hN : grid1.N = 20 := N_1
  have hi0 : (i 0).val < 100000 := (i 0).isLt
  have hi1 : (i 1).val < 128 := (i 1).isLt
  have ht : (i 0).val / 5000 < grid1.N := by rw [hN]; omega
  refine ⟨⟨(i 0).val / 5000, ht⟩, flush1_6 _, ?_⟩
  rw [mem_blk]
  obtain ⟨-, -, -, -, -, -, -, -, -, -, e60, e61⟩ := idx_facts ⟨(i 0).val / 5000, ht⟩
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e61]
    omega

/-- The output array after the region: `layerT` of the arrays as the region finds them. -/
theorem final (c : Dev nD) :
    (dat1 V c).arrAt 6 cfg1.N
      = layerT (opX V c) (opAgg V c) (opWa V c) (opWb V c) (opBa V c) (opBb V c) :=
  (dat1 V c).arrAt_eq_of_cover 6 _ (fun t _ => flushed_eq V c t) (fun i => cover i)

end Cert.Gin.Region1

end
-- ==== Proof.KernelEntry.lean ====
/-
  What the two regions of the kernel program find in their operands, and what the program returns.

  Before the first region the host slices the edge array into source and destination node indices, gathers the
  source nodes' feature rows and scatter-adds them at the destinations (`aggOf`), and transposes and narrows the two
  weights of the layer. The first region's output is `layerT` of those. Between the regions the host aggregates the
  first layer's OUTPUT over the same edges; the second region's operands are that output, its aggregate, and the
  second layer's transposed weights, which the first stretch already prepared. Each buffer's contents at a region's
  entry is the composition of the host operations that wrote it, read back through the boundaries in between.
-/
import proofs.«141448_j81767587381702_1_alg».proof.Proof.Gen.KernelIdeal.Frame
import proofs.«141448_j81767587381702_1_alg».proof.Proof.Layer
import proofs.«141448_j81767587381702_1_alg».proof.Proof.Region0
import proofs.«141448_j81767587381702_1_alg».proof.Proof.Region1
import Idealize.ShloMosaic.Lib.StableHlo.Run

set_option maxRecDepth 16384

noncomputable section

namespace Cert.Gin.KernelEntry

open Cert.KernelIdeal Cert.KernelIdeal.Gen Cert.Gin
open Idealize.ShloMosaic Idealize.ShloMosaic.TcCoe Idealize.ShloMosaic.StableHlo
open Idealize.SL Idealize.SL.Sem

section Spelling

variable {F : FTy → Type} [FloatOps F]

/-- The source node of each edge: row 0 of the edge array. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of each edge: row 1 of the edge array. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour aggregate: the rows of `x` at the source nodes (a negative index counted from the end),
    added up at the destination nodes into zeros. -/
def aggOf (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A weight as the kernel is handed it: transposed, then narrowed to bf16. -/
def weightT (w : (⟨S128x128, .f32⟩ : BufTy).Contents (Elt F)) : (⟨S128x128, .bf16⟩ : BufTy).Contents (Elt F) :=
  truncf .bf16 (transpose S128x128 [1, 0] w transposes_S128x128_S128x128_1_0) bitsLt_bf16_f32

end Spelling

variable (m : (ℓ : Loc nD τ sig) → Buf (Elt Ideal) ℓ) (ρ : Dev nD → PrngReg)

/-! ## The first region's operands -/

theorem entry0_x (c : Dev nD) : V1 m ρ c main_arg0 = m ((c : Thread nD τ).loc main_arg0) := by
  show StableHlo.after hostOps0 (W0 m ρ c) (Proc.devRef .tc main_arg0) = _
  after_results_simp <;> rfl

theorem entry0_src (c : Dev nD) : V1 m ρ c main_v1 = srcOf (m ((c : Thread nD τ).loc main_arg1)) := by
  show StableHlo.after hostOps0 (W0 m ρ c) (Proc.devRef .tc main_v1) = _
  after_results_simp <;> rfl

theorem entry0_dst (c : Dev nD) : V1 m ρ c main_v3 = dstOf (m ((c : Thread nD τ).loc main_arg1)) := by
  show StableHlo.after hostOps0 (W0 m ρ c) (Proc.devRef .tc main_v3) = _
  after_results_simp <;> rfl

theorem entry0_agg (c : Dev nD) : V1 m ρ c main_v21
    = aggOf (m ((c : Thread nD τ).loc main_arg0)) (srcOf (m ((c : Thread nD τ).loc main_arg1))) (dstOf (m ((c : Thread nD τ).loc main_arg1))) := by
  show StableHlo.after hostOps0 (W0 m ρ c) (Proc.devRef .tc main_v21) = _
  after_results_simp <;> rfl

theorem entry0_wa (c : Dev nD) : V1 m ρ c main_v5 = weightT (m ((c : Thread nD τ).loc main_arg2)) := by
  show StableHlo.after hostOps0 (W0 m ρ c) (Proc.devRef .tc main_v5) = _
  after_results_simp <;> rfl

theorem entry0_ba (c : Dev nD) : V1 m ρ c main_arg3 = m ((c : Thread nD τ).loc main_arg3) := by
  show StableHlo.after hostOps0 (W0 m ρ c) (Proc.devRef .tc main_arg3) = _
  after_results_simp <;> rfl

theorem entry0_wb (c : Dev nD) : V1 m ρ c main_v7 = weightT (m ((c : Thread nD τ).loc main_arg4)) := by
  show StableHlo.after hostOps0 (W0 m ρ c) (Proc.devRef .tc main_v7) = _
  after_results_simp <;> rfl

theorem entry0_bb (c : Dev nD) : V1 m ρ c main_arg5 = m ((c : Thread nD τ).loc main_arg5) := by
  show StableHlo.after hostOps0 (W0 m ρ c) (Proc.devRef .tc main_arg5) = _
  after_results_simp <;> rfl

theorem entry0_wa' (c : Dev nD) : V1 m ρ c main_v9 = weightT (m ((c : Thread nD τ).loc main_arg6)) := by
  show StableHlo.after hostOps0 (W0 m ρ c) (Proc.devRef .tc main_v9) = _
  after_results_simp <;> rfl

theorem entry0_ba' (c : Dev nD) : V1 m ρ c main_arg7 = m ((c : Thread nD τ).loc main_arg7) := by
  show StableHlo.after hostOps0 (W0 m ρ c) (Proc.devRef .tc main_arg7) = _
  after_results_simp <;> rfl

theorem entry0_wb' (c : Dev nD) : V1 m ρ c main_v11 = weightT (m ((c : Thread nD τ).loc main_arg8)) := by
  show StableHlo.after hostOps0 (W0 m ρ c) (Proc.devRef .tc main_v11) = _
  after_results_simp <;> rfl

theorem entry0_bb' (c : Dev nD) : V1 m ρ c main_arg9 = m ((c : Thread nD τ).loc main_arg9) := by
  show StableHlo.after hostOps0 (W0 m ρ c) (Proc.devRef .tc main_arg9) = _
  after_results_simp <;> rfl

/-- The first layer's output, as the first region leaves it. -/
def hidden (c : Dev nD) : FVec Ideal S100000x128 .f32 :=
  layerT (m ((c : Thread nD τ).loc main_arg0))
    (aggOf (m ((c : Thread nD τ).loc main_arg0)) (srcOf (m ((c : Thread nD τ).loc main_arg1))) (dstOf (m ((c : Thread nD τ).loc main_arg1))))
    (weightT (m ((c : Thread nD τ).loc main_arg2))) (weightT (m ((c : Thread nD τ).loc main_arg4)))
    (m ((c : Thread nD τ).loc main_arg3)) (m ((c : Thread nD τ).loc main_arg5))

/-- At the first region's exit its output array holds the first layer's output. -/
theorem exit0_out (c : Dev nD) : W2 m ρ c (Proc.devRef .tc main_v22) = hidden m c := by
  refine (W2_arr m ρ c 6).trans ((Region0.final (V1 m ρ) c).trans ?_)
  show layerT (V1 m ρ c main_arg0) (V1 m ρ c main_v21) (V1 m ρ c main_v5) (V1 m ρ c main_v7) (V1 m ρ c main_arg3)
    (V1 m ρ c main_arg5) = _
  rw [entry0_x, entry0_agg, entry0_wa, entry0_wb, entry0_ba, entry0_bb]
  rfl

/-! ## The second region's operands: read through the first region's exit -/

theorem entry1_x (c : Dev nD) : V3 m ρ c main_v22 = hidden m c := by
  show StableHlo.after hostOps1 (W2 m ρ c) (Proc.devRef .tc main_v22) = _
  after_results_simp
  exact exit0_out m ρ c

theorem entry1_agg (c : Dev nD) : V3 m ρ c main_v32
    = aggOf (hidden m c) (srcOf (m ((c : Thread nD τ).loc main_arg1))) (dstOf (m ((c : Thread nD τ).loc main_arg1))) := by
  show StableHlo.after hostOps1 (W2 m ρ c) (Proc.devRef .tc main_v32) = _
  after_results_simp
  rw [exit0_out, W2_of_ne m ρ c main_v1 (by decide), W2_of_ne m ρ c main_v3 (by decide)]
  rw [show W1 m ρ c (Proc.devRef .tc main_v1) = V1 m ρ c main_v1 from rfl,
    show W1 m ρ c (Proc.devRef .tc main_v3) = V1 m ρ c main_v3 from rfl, entry0_src, entry0_dst]
  rfl

theorem entry1_wa (c : Dev nD) : V3 m ρ c main_v9 = weightT (m ((c : Thread nD τ).loc main_arg6)) := by
  show StableHlo.after hostOps1 (W2 m ρ c) (Proc.devRef .tc main_v9) = _
  after_results_simp
  exact (W2_of_ne m ρ c main_v9 (by decide)).trans (entry0_wa' m ρ c)

theorem entry1_ba (c : Dev nD) : V3 m ρ c main_arg7 = m ((c : Thread nD τ).loc main_arg7) := by
  show StableHlo.after hostOps1 (W2 m ρ c) (Proc.devRef .tc main_arg7) = _
  after_results_simp
  exact (W2_of_ne m ρ c main_arg7 (by decide)).trans (entry0_ba' m ρ c)

theorem entry1_wb (c : Dev nD) : V3 m ρ c main_v11 = weightT (m ((c : Thread nD τ).loc main_arg8)) := by
  show StableHlo.after hostOps1 (W2 m ρ c) (Proc.devRef .tc main_v11) = _
  after_results_simp
  exact (W2_of_ne m ρ c main_v11 (by decide)).trans (entry0_wb' m ρ c)

theorem entry1_bb (c : Dev nD) : V3 m ρ c main_arg9 = m ((c : Thread nD τ).loc main_arg9) := by
  show StableHlo.after hostOps1 (W2 m ρ c) (Proc.devRef .tc main_arg9) = _
  after_results_simp
  exact (W2_of_ne m ρ c main_arg9 (by decide)).trans (entry0_bb' m ρ c)

/-! ## The result -/

/-- What the kernel program returns: the second layer applied to the first layer's output and its aggregate. -/
theorem result (c : Dev nD) : W4 m ρ c (Proc.devRef .tc main_v33)
    = layerT (hidden m c)
        (aggOf (hidden m c) (srcOf (m ((c : Thread nD τ).loc main_arg1))) (dstOf (m ((c : Thread nD τ).loc main_arg1))))
        (weightT (m ((c : Thread nD τ).loc main_arg6))) (weightT (m ((c : Thread nD τ).loc main_arg8)))
        (m ((c : Thread nD τ).loc main_arg7)) (m ((c : Thread nD τ).loc main_arg9)) := by
  refine (W4_arr m ρ c 6).trans ((Region1.final (V3 m ρ) c).trans ?_)
  show layerT (V3 m ρ c main_v22) (V3 m ρ c main_v32) (V3 m ρ c main_v9) (V3 m ρ c main_v11) (V3 m ρ c main_arg7)
    (V3 m ρ c main_arg9) = _
  rw [entry1_x, entry1_agg, entry1_wa, entry1_wb, entry1_ba, entry1_bb]

/-- What the kernel program returns, over the weights as given: `layer` of the first layer's output and that
    output's aggregate, the first layer's output itself `layer` of the node features and their aggregate. -/
theorem value (c : Dev nD) : W4 m ρ c (Proc.devRef .tc main_v33)
    = layer
        (layer (m ((c : Thread nD τ).loc main_arg0)) (aggOf (m ((c : Thread nD τ).loc main_arg0)) (srcOf (m ((c : Thread nD τ).loc main_arg1))) (dstOf (m ((c : Thread nD τ).loc main_arg1))))
          (m ((c : Thread nD τ).loc main_arg2)) (m ((c : Thread nD τ).loc main_arg4)) (m ((c : Thread nD τ).loc main_arg3)) (m ((c : Thread nD τ).loc main_arg5)))
        (aggOf
          (layer (m ((c : Thread nD τ).loc main_arg0)) (aggOf (m ((c : Thread nD τ).loc main_arg0)) (srcOf (m ((c : Thread nD τ).loc main_arg1))) (dstOf (m ((c : Thread nD τ).loc main_arg1))))
          (m ((c : Thread nD τ).loc main_arg2)) (m ((c : Thread nD τ).loc main_arg4)) (m ((c : Thread nD τ).loc main_arg3)) (m ((c : Thread nD τ).loc main_arg5)))
          (srcOf (m ((c : Thread nD τ).loc main_arg1))) (dstOf (m ((c : Thread nD τ).loc main_arg1))))
        (m ((c : Thread nD τ).loc main_arg6)) (m ((c : Thread nD τ).loc main_arg8)) (m ((c : Thread nD τ).loc main_arg7)) (m ((c : Thread nD τ).loc main_arg9)) := by
  rw [result]
  unfold hidden weightT
  rw [layerT_transposed, layerT_transposed]

end Cert.Gin.KernelEntry

end
-- ==== Proof.Reference.lean ====
/-
  What the reference program returns.

  The reference applies the same layer twice on the host. A layer slices the edge array into source and destination
  node indices, gathers the source nodes' feature rows and scatter-adds them at the destinations, adds the node's own
  features, and applies the dense part: `dot_general` against the transposed first weight, the bias, a maximum
  against zero, `dot_general` against the transposed second weight, the bias. The composed term the program's run
  ends at is that layer applied to the first layer's output; read at an index, a layer is `layer` of its input and
  its input's aggregate.
-/
import proofs.«141448_j81767587381702_1_alg».proof.Proof.Gen.ReferenceIdeal.Run
import proofs.«141448_j81767587381702_1_alg».proof.Proof.Layer

set_option maxRecDepth 16384

noncomputable section

namespace Cert.Gin.Reference

open Cert.ReferenceIdeal Cert.ReferenceIdeal.Gen Cert.ReferenceIdeal.Value Cert.Gin
open Idealize.ShloMosaic Idealize.ShloMosaic.TcCoe
open Idealize.SL Idealize.SL.Sem

section Spelling

variable {F : FTy → Type} [FloatOps F]

/-- The source node of each edge: row 0 of the edge array. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of each edge: row 1 of the edge array. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour aggregate: the rows of `x` at the source nodes (a negative index counted from the end),
    added up at the destination nodes into zeros. -/
def aggOf (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One layer as the reference's host operations spell it, from the node features `x`, the edge array `e`, and the
    layer's two weights and biases as given. -/
def hostLayer (x : (⟨S100000x128, .f32⟩ : BufTy).Contents (Elt F)) (e : (⟨S2x1600000, .i32⟩ : BufTy).Contents (Elt F))
    (wa : (⟨S128x128, .f32⟩ : BufTy).Contents (Elt F)) (ba : (⟨S128, .f32⟩ : BufTy).Contents (Elt F))
    (wb : (⟨S128x128, .f32⟩ : BufTy).Contents (Elt F)) (bb : (⟨S128, .f32⟩ : BufTy).Contents (Elt F)) :
    (⟨S100000x128, .f32⟩ : BufTy).Contents (Elt F) :=
  addf (Host.dotGeneral dot_S100000x128_S128x128_S100000x128_1_0_0_1_n_n none
        (maximumf
          (addf (Host.dotGeneral dot_S100000x128_S128x128_S100000x128_1_0_0_1_n_n none
                  (addf x (aggOf x (srcOf e) (dstOf e)))
                  (transpose S128x128 [1, 0] wa transposes_S128x128_S128x128_1_0))
            (broadcastInDim S100000x128 ![0, 1] bcast_S1x128_S100000x128_0_1 (broadcastInDim S1x128 ![1] bcast_S128_S1x128_1 ba)))
          (broadcastInDim S100000x128 ![] bcast_S_S100000x128 (constant (F := F) S_ .f32 0x00000000#32)))
        (transpose S128x128 [1, 0] wb transposes_S128x128_S128x128_1_0))
    (broadcastInDim S100000x128 ![0, 1] bcast_S1x128_S100000x128_0_1 (broadcastInDim S1x128 ![1] bcast_S128_S1x128_1 bb))

end Spelling

variable (m : (ℓ : Loc nD τ sig) → Buf (Elt Ideal) ℓ)

/-- The term the reference's run ends at is the second layer applied to the first layer's output. -/
theorem result_eq (c : Dev nD) : res_main_v47 m c
    = hostLayer
        (hostLayer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))
        (m ((c.tc : Thread nD τ).loc main_arg1))
        (m ((c.tc : Thread nD τ).loc main_arg6)) (m ((c.tc : Thread nD τ).loc main_arg7))
        (m ((c.tc : Thread nD τ).loc main_arg8)) (m ((c.tc : Thread nD τ).loc main_arg9)) := by
  unfold res_main_v47 hostLayer aggOf srcOf dstOf
  rfl

/-- A layer in the host's spelling is `layer` of its input and its input's aggregate, at every index. -/
theorem hostLayer_eq (x : FVec Ideal S100000x128 .f32) (e : (⟨S2x1600000, .i32⟩ : BufTy).Contents (Elt Ideal))
    (wa : FVec Ideal S128x128 .f32) (ba : FVec Ideal S128 .f32) (wb : FVec Ideal S128x128 .f32) (bb : FVec Ideal S128 .f32) :
    hostLayer x e wa ba wb bb = layer x (aggOf x (srcOf e) (dstOf e)) wa wb ba bb := by
  unfold hostLayer
  exact host_dense_eq_layer dot_S100000x128_S128x128_S100000x128_1_0_0_1_n_n rfl rfl rfl rfl rfl rfl x _ wa wb ba bb _ _ _ _

/-- What the reference returns, in the form both programs are compared at: `layer` of the first layer's output
    and that output's aggregate, the first layer's output itself `layer` of the node features and their aggregate. -/
theorem value (c : Dev nD) : res_main_v47 m c
    = layer
        (layer (m ((c.tc : Thread nD τ).loc main_arg0))
          (aggOf (m ((c.tc : Thread nD τ).loc main_arg0)) (srcOf (m ((c.tc : Thread nD τ).loc main_arg1)))
            (dstOf (m ((c.tc : Thread nD τ).loc main_arg1))))
          (m ((c.tc : Thread nD τ).loc main_arg2)) (m ((c.tc : Thread nD τ).loc main_arg4))
          (m ((c.tc : Thread nD τ).loc main_arg3)) (m ((c.tc : Thread nD τ).loc main_arg5)))
        (aggOf
          (layer (m ((c.tc : Thread nD τ).loc main_arg0))
            (aggOf (m ((c.tc : Thread nD τ).loc main_arg0)) (srcOf (m ((c.tc : Thread nD τ).loc main_arg1)))
              (dstOf (m ((c.tc : Thread nD τ).loc main_arg1))))
            (m ((c.tc : Thread nD τ).loc main_arg2)) (m ((c.tc : Thread nD τ).loc main_arg4))
            (m ((c.tc : Thread nD τ).loc main_arg3)) (m ((c.tc : Thread nD τ).loc main_arg5)))
          (srcOf (m ((c.tc : Thread nD τ).loc main_arg1))) (dstOf (m ((c.tc : Thread nD τ).loc main_arg1))))
        (m ((c.tc : Thread nD τ).loc main_arg6)) (m ((c.tc : Thread nD τ).loc main_arg8))
        (m ((c.tc : Thread nD τ).loc main_arg7)) (m ((c.tc : Thread nD τ).loc main_arg9)) := by
  rw [result_eq, hostLayer_eq, hostLayer_eq]

end Cert.Gin.Reference

end
-- ==== Proof.Bridge.lean ====
/-
  The two results are one array.

  Both programs return the second layer of the first layer's output. Over the weights as given each side is
  `layer (layer x (agg x)) (agg (layer x (agg x)))` with its own spelling of the aggregate `agg` — the same host
  operations (slice, reshape, the wrap of a negative index, gather, scatter-add into zeros) over dimension records
  with the same fields — so, from memories that agree on the ten arguments, the two terms are equal as they stand.
-/
import proofs.«141448_j81767587381702_1_alg».proof.Proof.KernelEntry
import proofs.«141448_j81767587381702_1_alg».proof.Proof.Reference

set_option maxRecDepth 16384

noncomputable section

namespace Cert.Gin.Bridge

open Cert.Gin
open Idealize.ShloMosaic Idealize.ShloMosaic.TcCoe
open Idealize.SL Idealize.SL.Sem

/-- The source-node index of each edge is spelled alike in both programs. -/
theorem srcOf_same (e : (⟨Cert.KernelIdeal.S2x1600000, .i32⟩ : BufTy).Contents (Elt Ideal)) :
    Reference.srcOf (F := Ideal) e = KernelEntry.srcOf (F := Ideal) e := rfl

/-- The destination-node index of each edge is spelled alike in both programs. -/
theorem dstOf_same (e : (⟨Cert.KernelIdeal.S2x1600000, .i32⟩ : BufTy).Contents (Elt Ideal)) :
    Reference.dstOf (F := Ideal) e = KernelEntry.dstOf (F := Ideal) e := rfl

/-- The neighbour aggregate is spelled alike in both programs: the same operations over equal dimension records. -/
theorem aggOf_same (x : (⟨Cert.KernelIdeal.S100000x128, .f32⟩ : BufTy).Contents (Elt Ideal))
    (s d : (⟨Cert.KernelIdeal.S1600000, .i32⟩ : BufTy).Contents (Elt Ideal)) :
    Reference.aggOf (F := Ideal) x s d = KernelEntry.aggOf (F := Ideal) x s d := rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- From memories agreeing on the arguments, the term the reference's run ends at is what the kernel program's
    result buffer holds after its run. -/
theorem results_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v47 m' c
      = Cert.KernelIdeal.Gen.W4 m ρ c (Proc.devRef .tc Cert.KernelIdeal.main_v33) := by
  rw [Reference.value, KernelEntry.value, h0, h1, h2, h3, h4, h5, h6, h7, h8, h9]
  simp only [srcOf_same, dstOf_same, aggOf_same]

end Cert.Gin.Bridge

end
-- ==== Proof.lean ====
/-
  Two graph-isomorphism layers on 100000 nodes with 128 features, the dense part of each on the matrix unit.

  A layer replaces each node's features `x p` by an MLP of `h p = x p + Σ_{edges j → p} x j`:

      out (p, q) = Σ_k max (Σ_l h (p, l) · wa (k, l) + ba k, 0) · wb (q, k) + bb q.

  The kernel program computes the neighbour sum on the host (a gather of the source rows, a scatter-add at the
  destinations) and the MLP in a pipelined region over 20 blocks of 5000 rows, against weights the host has transposed
  and narrowed to bf16; it does this twice, the second layer reading the first region's output. The reference does all
  of it on the host. On the extended reals the narrowing is the identity, a product into a zero accumulator is the
  plain sum of products, and a row of a layer's output depends on the same row of its inputs alone, so the 20 blocks of
  each region are the blocks of one whole-array function and the two programs return the same array, whatever the
  inputs: the proof never needs the entries to be finite.

  The pieces: `Layer` (the row function and both spellings of the dense part read at an index), `Region0` /
  `Region1` (what each region leaves in its output array), `KernelRun` (the kernel program's run with its result
  named), `KernelEntry` (what each region finds in its operands, and the result over the weights as given),
  `Reference` (the reference's result in the same form), `Bridge` (the two results are one array).
-/
import proofs.«141448_j81767587381702_1_alg».proof.Defs
import proofs.«141448_j81767587381702_1_alg».proof.Proof.Gen.Kernel
import proofs.«141448_j81767587381702_1_alg».proof.Proof.Gen.Kernel.Skeleton
import proofs.«141448_j81767587381702_1_alg».proof.Proof.Gen.Kernel.Launch
import proofs.«141448_j81767587381702_1_alg».proof.Proof.Gen.Kernel.Points
import proofs.«141448_j81767587381702_1_alg».proof.Proof.Gen.Kernel.Frame
import proofs.«141448_j81767587381702_1_alg».proof.Proof.Gen.KernelIdeal
import proofs.«141448_j81767587381702_1_alg».proof.Proof.Gen.KernelIdeal.Skeleton
import proofs.«141448_j81767587381702_1_alg».proof.Proof.Gen.KernelIdeal.Launch
import proofs.«141448_j81767587381702_1_alg».proof.Proof.Gen.KernelIdeal.Points
import proofs.«141448_j81767587381702_1_alg».proof.Proof.Gen.KernelIdeal.Frame
import proofs.«141448_j81767587381702_1_alg».proof.Proof.Gen.ReferenceIdeal
import proofs.«141448_j81767587381702_1_alg».proof.Proof.Gen.Pre_finite_inputs
import proofs.«141448_j81767587381702_1_alg».proof.Proof.Gen.ReferenceIdeal.Run
import proofs.«141448_j81767587381702_1_alg».proof.Proof.KernelRun
import proofs.«141448_j81767587381702_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- From memories agreeing on the arguments both idealized programs run to the end, and the kernel program's result
    array is the reference's, entry by entry. -/
theorem algebraic : Cert.algebraic_KernelIdeal_ReferenceIdeal := by
  intro m ρ m' ρ' _ hagree
  refine ⟨fun c => Cert.KernelIdeal.Gen.W4 m ρ c (Proc.devRef .tc Cert.KernelIdeal.main_v33),
    Cert.Gin.KernelRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact Cert.Gin.Bridge.results_agree m ρ m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
